-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S5000x1 : Shape := ⟨2, ![5000, 1]⟩
abbrev S5000 : Shape := ⟨1, ![5000]⟩
abbrev S1x1 : Shape := ⟨2, ![1, 1]⟩

abbrev nBuf : Space → Nat
  | .hbm => 68
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x1, .f32⟩
  | .hbm, ⟨67, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S1x128, .f32⟩
  | .local _ .vmem, ⟨17, _⟩ => ⟨S1, .f32⟩
  | .local _ .vmem, ⟨18, _⟩ => ⟨S5000x1, .f32⟩
  | .local _ .vmem, ⟨19, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S128x1_S1x128_1_0 : S128x1.Transposes [1, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S5000 : S5000x128.Reduces [1] S5000
  shapeCasts_S5000_S5000x1 : S5000.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel's run with its result named.

  @main is five segments: host operations, region 0, host operations, region 1, one last host operation. Every weakly
  fair execution runs them in order without a fault, and at the end every unscoped buffer of a core holds the last
  boundary's contents: the launch memory folded through the three stretches of host operations and the two regions'
  write-backs. Read at the result buffer that gives the result's value; read at an argument it gives the argument as
  launched.
-/
import proofs.«113463_j67680094650381_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last boundary's
    contents and every argument as launched. -/
theorem run_named : θ_run defs (onTc (τ := τ) (main (F := F))) ⟨m, fun _ => 0, ρ⟩ (fun r => ∀ c : Dev nD,
      r.2.mem ((c.tc : Thread nD τ).loc main_v45) = W5 m ρ c (Proc.devRef .tc main_v45)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.KRun

end
-- ==== Proof.Spec.lean ====
/-
  The mathematics of the two-layer mean-aggregation network's dense part, over the extended reals.

  A matrix is a function of a rank-2 index. One LAYER takes an aggregated matrix A and a root matrix H (both n × 128),
  two 128 × 128 weight matrices Wn, Wr and a bias b of 128 numbers, and returns the n × 128 matrix whose entry (p, q) is
      max ( (Σ_k A(p,k)·Wn(k,q) + Σ_k H(p,k)·Wr(k,q)) + b(q) , 0 ).
  The HEAD takes an n × 128 matrix X, a 128 × 1 weight column wh and a one-entry bias bh and returns the n × 1 column
  whose entry p is  Σ_k X(p,k)·wh(k,0) + bh(0).

  Row p of a layer depends only on row p of A and of H; entry p of the head only on row p of X. So a layer (or a head)
  computed from a strip of consecutive rows is the same strip of the layer (or head) of the whole matrices: that is what
  lets a result produced block of rows by block of rows be read as one whole-array formula. Only commutative-monoid
  facts about + are used, so nothing here needs the entries to be finite.
-/
import Idealize.ShloMosaic.Lib.ValueIdx
import Idealize.ShloMosaic.PureOps.Ideal

noncomputable section

open scoped BigOperators

namespace Cert.Sage

open Idealize.ShloMosaic Idealize.ShloMosaic.ValueIdx

/-- An a × b matrix over the extended reals. -/
abbrev Mat (a b : Nat) : Type := (⟨2, ![a, b]⟩ : Shape).Idx → EReal
/-- A vector of a extended reals. -/
abbrev Row (a : Nat) : Type := (⟨1, ![a]⟩ : Shape).Idx → EReal

/-- Entry (p, q) of a layer. -/
def layerAt {n : Nat} (A H : Mat n 128) (Wn Wr : Mat 128 128) (b : Row 128) (p : Fin n) (q : Fin 128) : EReal :=
  max (((∑ k : Fin 128, A (ix2 p k) * Wn (ix2 k q)) + (∑ k : Fin 128, H (ix2 p k) * Wr (ix2 k q))) + b (ix1 q)) 0

/-- A layer, as a matrix. -/
def layer {n : Nat} (A H : Mat n 128) (Wn Wr : Mat 128 128) (b : Row 128) : Mat n 128 :=
  fun i => layerAt A H Wn Wr b (i 0) (i 1)

theorem layer_apply {n : Nat} (A H : Mat n 128) (Wn Wr : Mat 128 128) (b : Row 128) (p : Fin n) (q : Fin 128) :
    layer A H Wn Wr b (ix2 p q) = layerAt A H Wn Wr b p q := rfl

/-- Entry p of the head. -/
def headAt {n : Nat} (X : Mat n 128) (wh : Mat 128 1) (bh : Row 1) (p : Fin n) : EReal :=
  (∑ k : Fin 128, X (ix2 p k) * wh (ix2 k (0 : Fin 1))) + bh (ix1 (0 : Fin 1))

/-- The head, as an n × 1 column. -/
def headCol {n : Nat} (X : Mat n 128) (wh : Mat 128 1) (bh : Row 1) : Mat n 1 :=
  fun i => headAt X wh bh (i 0)

theorem headCol_apply {n : Nat} (X : Mat n 128) (wh : Mat 128 1) (bh : Row 1) (p : Fin n) (u : Fin 1) :
    headCol X wh bh (ix2 p u) = headAt X wh bh p := rfl

/-- Row p of a layer of (a, h) is row P of the layer of (A, H) when those rows agree. -/
theorem layerAt_rows {m n : Nat} (a h : Mat m 128) (A H : Mat n 128) (Wn Wr : Mat 128 128) (b : Row 128)
    (p : Fin m) (P : Fin n) (q : Fin 128)
    (ha : ∀ k : Fin 128, a (ix2 p k) = A (ix2 P k)) (hh : ∀ k : Fin 128, h (ix2 p k) = H (ix2 P k)) :
    layerAt a h Wn Wr b p q = layerAt A H Wn Wr b P q := by
  unfold layerAt
  simp only [ha, hh]

/-- Entry p of the head of x is entry P of the head of X when row p of x is row P of X. -/
theorem headAt_rows {m n : Nat} (x : Mat m 128) (X : Mat n 128) (wh : Mat 128 1) (bh : Row 1) (p : Fin m) (P : Fin n)
    (hx : ∀ k : Fin 128, x (ix2 p k) = X (ix2 P k)) : headAt x wh bh p = headAt X wh bh P := by
  unfold headAt
  simp only [hx]

/-- Entry p of the head when the weight column is laid out as ONE ROW wr of 128 numbers: Σ_k X(p,k)·wr(0,k) + bh(0). -/
def headRowAt {n : Nat} (X : Mat n 128) (wr : Mat 1 128) (bh : Row 1) (p : Fin n) : EReal :=
  (∑ k : Fin 128, X (ix2 p k) * wr (ix2 (0 : Fin 1) k)) + bh (ix1 (0 : Fin 1))

/-- The row-form head, as an n × 1 column. -/
def headRowCol {n : Nat} (X : Mat n 128) (wr : Mat 1 128) (bh : Row 1) : Mat n 1 :=
  fun i => headRowAt X wr bh (i 0)

theorem headRowCol_apply {n : Nat} (X : Mat n 128) (wr : Mat 1 128) (bh : Row 1) (p : Fin n) (u : Fin 1) :
    headRowCol X wr bh (ix2 p u) = headRowAt X wr bh p := rfl

/-- Entry p of the row-form head of x is entry P of the row-form head of X when row p of x is row P of X. -/
theorem headRowAt_rows {m n : Nat} (x : Mat m 128) (X : Mat n 128) (wr : Mat 1 128) (bh : Row 1) (p : Fin m) (P : Fin n)
    (hx : ∀ k : Fin 128, x (ix2 p k) = X (ix2 P k)) : headRowAt x wr bh p = headRowAt X wr bh P := by
  unfold headRowAt
  simp only [hx]

/-- The row-form head is the head, when the row is the column transposed: wr(0,k) = wh(k,0). -/
theorem headRowCol_eq_headCol {n : Nat} (X : Mat n 128) (wr : Mat 1 128) (wh : Mat 128 1) (bh : Row 1)
    (hw : ∀ k : Fin 128, wr (ix2 (0 : Fin 1) k) = wh (ix2 k (0 : Fin 1))) : headRowCol X wr bh = headCol X wh bh := by
  funext i
  unfold headRowCol headCol headRowAt headAt
  simp only [hw]

end Cert.Sage

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«113463_j67680094650381_1_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.Body0.lean ====
/-
  Region 0's body, read at an index.

  The body loads one block of 5000 rows of the aggregated matrix and of the root matrix, the two weight matrices and
  the bias, and stores  max ((a·wn + h·wr) + bias row, 0): the products are plain 5000×128 by 128×128 products into a
  zero accumulator (the operands' change of float format is the identity on extended reals), the bias is viewed as one
  row and spread over the 5000 rows, the zero of the maximum is the f32 word 0. Entry (p, q) is therefore the layer's
  entry (p, q) of the loaded blocks.
-/
import proofs.«113463_j67680094650381_1_alg».proof.Proof.Gen.KernelIdeal.Skeleton
import proofs.«113463_j67680094650381_1_alg».proof.Proof.Spec
import proofs.«113463_j67680094650381_1_alg».proof.Proof.LibAffineRow
import Idealize.ShloMosaic.Lib.ValueIdx
import Idealize.ShloMosaic.Lib.Pipeline.Value
import Idealize.ShloMosaic.PureOps.Ideal.Laws

noncomputable section

open scoped BigOperators

namespace Cert.KernelIdeal.Body0

open Idealize.ShloMosaic Idealize.ShloMosaic.ValueIdx Cert.KernelIdeal Cert.KernelIdeal.Gen Cert.Sage

/-- The printed dimension numbers are those of a plain 5000×128 by 128×128 product. -/
theorem dot_eq : dot_S5000x128_S128x128_S5000x128_1_0_0_1_n_n = DotDims.plain 5000 128 128 := rfl

/-- The layer as the vector operations compute it, at (p, q). -/
theorem layerVec_apply (a h : Vec Ideal S5000x128 .f32) (wn wr : Vec Ideal S128x128 .f32) (b : Vec Ideal S128 .f32)
    (hb : FTy.bf16.bits < FTy.f32.bits) (h1 : S128.ShapeCasts S1x128) (h2 : S1x128.Broadcasts S5000x128)
    (p : Fin 5000) (q : Fin 128) :
    maximumf (addf (addf (matmul dot_S5000x128_S128x128_S5000x128_1_0_0_1_n_n none (truncf .bf16 a hb) (truncf .bf16 wn hb) (constant S5000x128 .f32 0x00000000#32))
                         (matmul dot_S5000x128_S128x128_S5000x128_1_0_0_1_n_n none (truncf .bf16 h hb) (truncf .bf16 wr hb) (constant S5000x128 .f32 0x00000000#32)))
                   (broadcastTo S5000x128 (shapeCast S1x128 b h1) h2))
        (broadcast S5000x128 (Scalar.ofBits (F := Ideal) .f32 0x00000000#32)) (ix2 p q)
      = layerAt a h wn wr b p q := by
  rw [maximumf_apply, addf_apply, addf_apply, broadcast_apply, AffineRow.biasRows_apply, dot_eq]
  unfold layerAt
  refine congrArg₂ max (congrArg₂ (· + ·) (congrArg₂ (· + ·) ?_ ?_) rfl) Ideal.ofBits_zero_f32
  · exact PlainDot.matmul_zero_apply none (truncf .bf16 a hb) (truncf .bf16 wn hb) p q
  · exact PlainDot.matmul_zero_apply none (truncf .bf16 h hb) (truncf .bf16 wr hb) p q

/-- What the body stores, at (p, q), is the layer's entry (p, q) of the loaded blocks. -/
theorem pay_apply (x0 x1 : Vec Ideal S5000x128 .f32) (x2 x3 : Vec Ideal S128x128 .f32) (x4 : Vec Ideal S128 .f32)
    (p : Fin 5000) (q : Fin 128) :
    k0_pay1 x0 x1 x2 x3 x4 (ix2 p q) = layerAt x0 x1 x2 x3 x4 p q := by
  unfold k0_pay1
  rw [shapeCast_self]
  exact layerVec_apply x0 x1 x2 x3 x4 _ _ _ p q

end Cert.KernelIdeal.Body0

end
-- ==== Proof.Final0.lean ====
/-
  Region 0's output array: the layer of the arrays the region finds.

  The grid has 20 points; point t reads rows 5000·t … 5000·t+4999 of the aggregated matrix and of the root matrix, the
  two weight matrices and the bias whole, and writes back rows 5000·t … 5000·t+4999 of the output. What it writes is the
  layer of its blocks, and row p of that is row 5000·t+p of the layer of the whole matrices (a layer's row depends only on
  the same row of its two matrix operands). The 20 blocks of 5000 rows cover the 100000 rows, so the output array ends as
  the layer of the whole arrays.
-/
import proofs.«113463_j67680094650381_1_alg».proof.Proof.Gen.KernelIdeal.Frame
import proofs.«113463_j67680094650381_1_alg».proof.Proof.Body0
import Idealize.ShloMosaic.Lib.Pipeline.Value

set_option maxRecDepth 16384

noncomputable section

namespace Cert.KernelIdeal.Final0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the arrays region 0 finds: aggregated matrix, root matrix, two weight matrices, bias. -/
abbrev L0 (c : Dev nD) : S100000x128.Idx → EReal :=
  layer (n := 100000) (V c main_v22) (V c main_arg0) (V c main_arg2) (V c main_arg3) (V c main_arg4)

/-- The printed index maps over the grid: the row-blocked windows sit at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A point's row offset stays inside the array. -/
theorem row_lt (t : Fin cfg0.N) (p : Fin 5000) : t.val * 5000 + p.val < 100000 := by
  have ht : t.val < 20 := lt_of_lt_of_eq t.isLt N_0
  have hp := p.isLt
  omega

/-- Row p of point t's block of a row-blocked input window is row 5000·t + p of its array. -/
theorem blk0_read (c : Dev nD) (t : Fin cfg0.N) (p : Fin 5000) (k : Fin 128) :
    iblk0 V c 0 t (ix2 p k) = (V c main_v22 : S100000x128.Idx → EReal) (ix2 ⟨t.val * 5000 + p.val, row_lt t p⟩ k) := by
  obtain ⟨e00, e01, -⟩ := idx_facts t
  show (V c main_v22 : S100000x128.Idx → EReal) (((cfg0.win 0).blk t).view.emb (ix2 p k)) = _
  refine congrArg (V c main_v22 : S100000x128.Idx → EReal) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

theorem blk1_read (c : Dev nD) (t : Fin cfg0.N) (p : Fin 5000) (k : Fin 128) :
    iblk0 V c 1 t (ix2 p k) = (V c main_arg0 : S100000x128.Idx → EReal) (ix2 ⟨t.val * 5000 + p.val, row_lt t p⟩ k) := by
  obtain ⟨-, -, e10, e11, -⟩ := idx_facts t
  show (V c main_arg0 : S100000x128.Idx → EReal) (((cfg0.win 1).blk t).view.emb (ix2 p k)) = _
  refine congrArg (V c main_arg0 : S100000x128.Idx → EReal) (funext fun a => Fin.ext ?_)
  match a with
  | ⟨0, _⟩ => show win0_1.index t (0 : Fin 2) * 5000 + 1 * p.val = t.val * 5000 + p.val; rw [e10]; omega
  | ⟨1, _⟩ => show win0_1.index t (1 : Fin 2) * 128 + 1 * k.val = k.val; rw [e11]; omega

/-- The weight and bias windows' one block is the whole array. -/
theorem blk2_read (c : Dev nD) (t : Fin cfg0.N) : iblk0 V c 2 t = (V c main_arg2 : S128x128.Idx → EReal) := by
  obtain ⟨-, -, -, -, e20, e21, -⟩ := idx_facts t
  funext y
  show (V c main_arg2 : S128x128.Idx → EReal) (((cfg0.win 2).blk t).view.emb y) = _
  refine congrArg (V c main_arg2 : S128x128.Idx → EReal) (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

theorem blk3_read (c : Dev nD) (t : Fin cfg0.N) : iblk0 V c 3 t = (V c main_arg3 : S128x128.Idx → EReal) := by
  obtain ⟨-, -, -, -, -, -, e30, e31, -⟩ := idx_facts t
  funext y
  show (V c main_arg3 : S128x128.Idx → EReal) (((cfg0.win 3).blk t).view.emb y) = _
  refine congrArg (V c main_arg3 : S128x128.Idx → EReal) (funext fun a => Fin.ext ?_)
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

theorem blk4_read (c : Dev nD) (t : Fin cfg0.N) : iblk0 V c 4 t = (V c main_arg4 : S128.Idx → EReal) := by
  obtain ⟨-, -, -, -, -, -, -, -, e40, -⟩ := idx_facts t
  funext y
  show (V c main_arg4 : S128.Idx → EReal) (((cfg0.win 4).blk t).view.emb y) = _
  refine congrArg (V c main_arg4 : S128.Idx → EReal) (funext fun a => Fin.ext ?_)
  match a with
  | ⟨0, _⟩ => show win0_4.index t (0 : Fin 1) * 128 + 1 * (y 0).val = (y 0).val; rw [e40]; omega

/-- Position (p, q) of point t's output block is position (5000·t + p, q) of the output array. -/
theorem out_emb (t : Fin cfg0.N) (p : Fin 5000) (q : Fin 128) :
    ((cfg0.win 5).blk t).view.emb (ix2 p q) = (ix2 ⟨t.val * 5000 + p.val, row_lt t p⟩ q : S100000x128.Idx) := by
  obtain ⟨-, -, -, -, -, -, -, -, -, e50, e51⟩ := idx_facts t
  funext a; apply Fin.ext
  match a with
  | ⟨0, _⟩ => show win0_5.index t (0 : Fin 2) * 5000 + 1 * p.val = t.val * 5000 + p.val; rw [e50]; omega
  | ⟨1, _⟩ => show win0_5.index t (1 : Fin 2) * 128 + 1 * q.val = q.val; rw [e51]; omega

/-- What point t writes back is block t of the layer of the whole arrays. -/
theorem flushed_eq (c : Dev nD) (t : Fin cfg0.N) :
    (dat0 V c).flushed 5 t = ((cfg0.win 5).blk t).view.read (Elt Ideal) (L0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
      = L0 V c (((cfg0.win 5).blk t).view.emb (ix2 p q))
  rw [out_emb t p q]
  refine (Body0.pay_apply (iblk0 V c 0 t) (iblk0 V c 1 t) (iblk0 V c 2 t) (iblk0 V c 3 t) (iblk0 V c 4 t) p q).trans ?_
  rw [blk2_read V c t, blk3_read V c t, blk4_read V c t]
  exact layerAt_rows (iblk0 V c 0 t) (iblk0 V c 1 t) (V c main_v22) (V c main_arg0) (V c main_arg2) (V c main_arg3) (V c main_arg4)
    p ⟨t.val * 5000 + p.val, row_lt t p⟩ q (fun k => blk0_read V c t p k) (fun k => blk1_read V c t p k)

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every index of the output array is in the block of the point that owns its row: point (row / 5000). -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  obtain ⟨-, -, -, -, -, -, -, -, -, e50, e51⟩ := idx_facts ⟨(i 0).val / 5000, ht⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- Region 0's output array after the region is the layer of the arrays the region found. -/
theorem final (c : Dev nD) : (dat0 V c).arrAt 5 cfg0.N = L0 V c :=
  (dat0 V c).arrAt_eq_of_cover 5 (L0 V c) (fun t _ => flushed_eq V c t) (cover)

end Cert.KernelIdeal.Final0

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.Body1.lean ====
/-
  Region 1's body, read at an index.

  The body computes the same layer as region 0 on its block of 5000 rows, multiplies it entry by entry with the head's
  weights laid out as one row of 128 numbers spread over the rows, sums each row over its 128 lanes from the zero
  accumulator, stands the 5000 sums up as a column and adds the one-entry bias spread over the column. Entry (p, 0) is
  therefore  Σ_k layer(p,k)·row(0,k) + bias(0).
-/
import proofs.«113463_j67680094650381_1_alg».proof.Proof.Gen.KernelIdeal.Skeleton
import proofs.«113463_j67680094650381_1_alg».proof.Proof.Spec
import proofs.«113463_j67680094650381_1_alg».proof.Proof.Body0
import proofs.«113463_j67680094650381_1_alg».proof.Proof.LibAffineRow
import proofs.«113463_j67680094650381_1_alg».proof.Proof.LibRowOps
import proofs.«113463_j67680094650381_1_alg».proof.Proof.LibRowSpread
import Idealize.ShloMosaic.Lib.ValueIdx
import Idealize.ShloMosaic.Lib.Pipeline.Value
import Idealize.ShloMosaic.PureOps.Ideal.Laws

noncomputable section

open scoped BigOperators

namespace Cert.KernelIdeal.Body1

open Idealize.ShloMosaic Idealize.ShloMosaic.ValueIdx Cert.KernelIdeal Cert.KernelIdeal.Gen Cert.Sage

/-- What the body stores, at (p, u), is the row-form head's entry p of the layer of the loaded blocks. -/
theorem pay_apply (x0 x1 : Vec Ideal S5000x128 .f32) (x2 x3 : Vec Ideal S128x128 .f32) (x4 : Vec Ideal S128 .f32)
    (x5 : Vec Ideal S1x128 .f32) (x6 : Vec Ideal S1 .f32) (p : Fin 5000) (u : Fin 1) :
    k1_pay1 x0 x1 x2 x3 x4 x5 x6 (ix2 p u) = headRowAt (layer (n := 5000) x0 x1 x2 x3 x4) x5 x6 p := by
  obtain rfl : u = 0 := Subsingleton.elim _ _
  unfold k1_pay1
  simp only [shapeCast_self]
  rw [addf_apply, RowOps.colCast_apply, AffineRow.biasRows_apply]
  unfold headRowAt
  refine congrArg (· + x6 (ix1 (0 : Fin 1))) ((RowOps.rowSum_vector _ _ _ _ _ p).trans (Finset.sum_congr rfl fun k _ => ?_))
  rw [mulf_apply, RowSpread.rowBcast_apply, layer_apply]
  exact congrArg (· * x5 (ix2 (0 : Fin 1) k)) (Body0.layerVec_apply x0 x1 x2 x3 x4 _ _ _ p k)

end Cert.KernelIdeal.Body1

end
-- ==== Proof.Final1.lean ====
/-
  Region 1's output array: the row-form head of the layer of the arrays the region finds.

  The grid has 20 points; point t reads rows 5000·t … 5000·t+4999 of the aggregated matrix and of the root matrix, the
  two weight matrices, the bias, the head's weight row and its one-entry bias whole, and writes back rows
  5000·t … 5000·t+4999 of the output column. What it writes is the row-form head of the layer of its blocks; entry p of
  that is entry 5000·t+p of the row-form head of the layer of the whole matrices, because a layer's row depends only on the
  same row of its two matrix operands and a head's entry only on the same row of its operand. The 20 blocks cover the
  100000 rows.
-/
import proofs.«113463_j67680094650381_1_alg».proof.Proof.Gen.KernelIdeal.Frame
import proofs.«113463_j67680094650381_1_alg».proof.Proof.Body1
import Idealize.ShloMosaic.Lib.Pipeline.Value

set_option maxRecDepth 16384

noncomputable section

namespace Cert.KernelIdeal.Final1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The row-form head of the layer of the arrays region 1 finds. -/
abbrev L1 (c : Dev nD) : S100000x1.Idx → EReal :=
  headRowCol (n := 100000)
    (layer (n := 100000) (V c main_v42) (V c main_v23) (V c main_arg5) (V c main_arg6) (V c main_arg7))
    (V c main_v43) (V c main_arg9)

/-- The printed index maps over the grid: the row-blocked windows sit at block t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A point's row offset stays inside the array. -/
theorem row_lt (t : Fin cfg1.N) (p : Fin 5000) : t.val * 5000 + p.val < 100000 := by
  have ht : t.val < 20 := lt_of_lt_of_eq t.isLt N_1
  have hp := p.isLt
  omega

/-- Row p of point t's block of a row-blocked input window is row 5000·t + p of its array. -/
theorem blk0_read (c : Dev nD) (t : Fin cfg1.N) (p : Fin 5000) (k : Fin 128) :
    iblk1 V c 0 t (ix2 p k) = (V c main_v42 : S100000x128.Idx → EReal) (ix2 ⟨t.val * 5000 + p.val, row_lt t p⟩ k) := by
  obtain ⟨e00, e01, -⟩ := idx_facts t
  show (V c main_v42 : S100000x128.Idx → EReal) (((cfg1.win 0).blk t).view.emb (ix2 p k)) = _
  refine congrArg (V c main_v42 : S100000x128.Idx → EReal) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * k.val = k.val; rw [e01]; omega

theorem blk1_read (c : Dev nD) (t : Fin cfg1.N) (p : Fin 5000) (k : Fin 128) :
    iblk1 V c 1 t (ix2 p k) = (V c main_v23 : S100000x128.Idx → EReal) (ix2 ⟨t.val * 5000 + p.val, row_lt t p⟩ k) := by
  obtain ⟨-, -, e10, e11, -⟩ := idx_facts t
  show (V c main_v23 : S100000x128.Idx → EReal) (((cfg1.win 1).blk t).view.emb (ix2 p k)) = _
  refine congrArg (V c main_v23 : S100000x128.Idx → EReal) (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 128 + 1 * k.val = k.val; rw [e11]; omega

/-- The weight, bias, head-row and head-bias windows' one block is the whole array. -/
theorem blk2_read (c : Dev nD) (t : Fin cfg1.N) : iblk1 V c 2 t = (V c main_arg5 : S128x128.Idx → EReal) := by
  obtain ⟨-, -, -, -, e0, e1, -⟩ := idx_facts t
  funext y
  show (V c main_arg5 : S128x128.Idx → EReal) (((cfg1.win 2).blk t).view.emb y) = _
  refine congrArg (V c main_arg5 : S128x128.Idx → EReal) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk3_read (c : Dev nD) (t : Fin cfg1.N) : iblk1 V c 3 t = (V c main_arg6 : S128x128.Idx → EReal) := by
  obtain ⟨-, -, -, -, -, -, e0, e1, -⟩ := idx_facts t
  funext y
  show (V c main_arg6 : S128x128.Idx → EReal) (((cfg1.win 3).blk t).view.emb y) = _
  refine congrArg (V c main_arg6 : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk4_read (c : Dev nD) (t : Fin cfg1.N) : iblk1 V c 4 t = (V c main_arg7 : S128.Idx → EReal) := by
  obtain ⟨-, -, -, -, -, -, -, -, e0, -⟩ := idx_facts t
  funext y
  show (V c main_arg7 : S128.Idx → EReal) (((cfg1.win 4).blk t).view.emb y) = _
  refine congrArg (V c main_arg7 : S128.Idx → EReal) (funext fun a => Fin.ext ?_)
  match a with
  | ⟨0, _⟩ => show win1_4.index t (0 : Fin 1) * 128 + 1 * (y 0).val = (y 0).val; rw [e0]; omega

theorem blk5_read (c : Dev nD) (t : Fin cfg1.N) : iblk1 V c 5 t = (V c main_v43 : S1x128.Idx → EReal) := by
  obtain ⟨-, -, -, -, -, -, -, -, -, e0, e1, -⟩ := idx_facts t
  funext y
  show (V c main_v43 : S1x128.Idx → EReal) (((cfg1.win 5).blk t).view.emb y) = _
  refine congrArg (V c main_v43 : S1x128.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem blk6_read (c : Dev nD) (t : Fin cfg1.N) : iblk1 V c 6 t = (V c main_arg9 : S1.Idx → EReal) := by
  obtain ⟨-, -, -, -, -, -, -, -, -, -, -, e0, -⟩ := idx_facts t
  funext y
  show (V c main_arg9 : S1.Idx → EReal) (((cfg1.win 6).blk t).view.emb y) = _
  refine congrArg (V c main_arg9 : S1.Idx → EReal) (funext fun a => Fin.ext ?_)
  match a with
  | ⟨0, _⟩ => show win1_6.index t (0 : Fin 1) * 1 + 1 * (y 0).val = (y 0).val; rw [e0]; omega

/-- Position (p, u) of point t's output block is position (5000·t + p, u) of the output column. -/
theorem out_emb (t : Fin cfg1.N) (p : Fin 5000) (u : Fin 1) :
    ((cfg1.win 7).blk t).view.emb (ix2 p u) = (ix2 ⟨t.val * 5000 + p.val, row_lt t p⟩ u : S100000x1.Idx) := by
  obtain ⟨-, -, -, -, -, -, -, -, -, -, -, -, e70, e71⟩ := idx_facts t
  funext a; apply Fin.ext
  match a with
  | ⟨0, _⟩ => show win1_7.index t (0 : Fin 2) * 5000 + 1 * p.val = t.val * 5000 + p.val; rw [e70]; omega
  | ⟨1, _⟩ => show win1_7.index t (1 : Fin 2) * 1 + 1 * u.val = u.val; rw [e71]; omega

/-- What point t writes back is block t of the row-form head of the layer of the whole arrays. -/
theorem flushed_eq (c : Dev nD) (t : Fin cfg1.N) :
    (dat1 V c).flushed 7 t = ((cfg1.win 7).blk t).view.read (Elt Ideal) (L1 V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1,
    View.ld_unit_zero (S := S1x128) hz2, View.ld_unit_zero (S := S1) hz1]
  funext j
  obtain ⟨p, u, rfl⟩ : ∃ (p : Fin 5000) (u : Fin 1), j = ix2 p u := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p u)
      = L1 V c (((cfg1.win 7).blk t).view.emb (ix2 p u))
  rw [out_emb t p u]
  refine (Body1.pay_apply (iblk1 V c 0 t) (iblk1 V c 1 t) (iblk1 V c 2 t) (iblk1 V c 3 t) (iblk1 V c 4 t) (iblk1 V c 5 t) (iblk1 V c 6 t) p u).trans ?_
  rw [blk2_read V c t, blk3_read V c t, blk4_read V c t, blk5_read V c t, blk6_read V c t]
  show headRowAt (layer (n := 5000) (iblk1 V c 0 t) (iblk1 V c 1 t) (V c main_arg5) (V c main_arg6) (V c main_arg7)) (V c main_v43) (V c main_arg9) p
      = headRowAt (layer (n := 100000) (V c main_v42) (V c main_v23) (V c main_arg5) (V c main_arg6) (V c main_arg7)) (V c main_v43) (V c main_arg9)
          ⟨t.val * 5000 + p.val, row_lt t p⟩
  refine headRowAt_rows _ _ _ _ p ⟨t.val * 5000 + p.val, row_lt t p⟩ fun k => ?_
  exact layerAt_rows (iblk1 V c 0 t) (iblk1 V c 1 t) (V c main_v42) (V c main_v23) (V c main_arg5) (V c main_arg6) (V c main_arg7)
    p ⟨t.val * 5000 + p.val, row_lt t p⟩ k (fun k => blk0_read V c t p k) (fun k => blk1_read V c t p k)

/-- An index of the output column is in point t's block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v44).slice (win1_7.rect t)).set ↔ _
  rw [View.set_slice_whole, Rect.mem_set_unit]
  exact Iff.rfl

/-- Every index of the output column is in the block of the point that owns its row: point (row / 5000). -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  have ht : (i 0).val / 5000 < cfg1.N := by rw [hN]; omega
  refine ⟨⟨(i 0).val / 5000, ht⟩, flush1_7 _, ?_⟩
  obtain ⟨-, -, -, -, -, -, -, -, -, -, -, -, e70, e71⟩ := idx_facts ⟨(i 0).val / 5000, ht⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win1_7.index ⟨(i 0).val / 5000, ht⟩ (1 : Fin 2) * 1 ≤ (i 1).val ∧ (i 1).val < win1_7.index ⟨(i 0).val / 5000, ht⟩ (1 : Fin 2) * 1 + 1
    rw [e71]; omega

/-- Region 1's output column after the region is the row-form head of the layer of the arrays the region found. -/
theorem final (c : Dev nD) : (dat1 V c).arrAt 7 cfg1.N = L1 V c :=
  (dat1 V c).arrAt_eq_of_cover 7 (L1 V c) (fun t _ => flushed_eq V c t) (cover)

end Cert.KernelIdeal.Final1

end
-- ==== Proof.HostK.lean ====
/-
  The host operations around the two regions, as functions.

  MEAN AGGREGATION. From a feature matrix x (100000 × 128) and the edge list (source row and destination row of
  1600000 edges) the host computes: the source indices with negative ones wrapped by +100000; the gather of x's rows at
  them; the scatter-add of those rows onto the destination rows of a zero matrix; the scatter-add of ones onto the
  destinations of a zero vector (the in-degree), its maximum with 1, stood up as a column and spread over the 128
  lanes; and the quotient of the two. The same chain is applied twice (to the input features, then to the first
  layer's output) and is never opened here: it is one function `agg` of (x, sources, destinations).

  The three stretches of host operations of @main, folded over ANY buffer contents X: the first leaves agg of the
  input features in the first region's first operand and the two index vectors in their buffers; the second leaves agg
  of the first region's output in the second region's first operand and the head's weight column transposed to a row;
  the third reshapes the second region's 100000 × 1 output to the result vector. No stretch writes an argument.
-/
import proofs.«113463_j67680094650381_1_alg».proof.Proof.Gen.KernelIdeal.Launch
import Idealize.ShloMosaic.Lib.StableHlo.Run
import Idealize.ShloMosaic.PureOps.Ideal

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen

abbrev Feat : Type := (⟨S100000x128, .f32⟩ : BufTy).Contents (Elt Ideal)
abbrev Edges : Type := (⟨S2x1600000, .i32⟩ : BufTy).Contents (Elt Ideal)
abbrev Ends : Type := (⟨S1600000, .i32⟩ : BufTy).Contents (Elt Ideal)

/-- The edges' source rows: row 0 of the edge list. -/
def srcOf (e : Edges) : Ends :=
  shapeCast S1600000 (extractStridedSlice S1x1600000 ![0, 0] e slices_S2x1600000_S1x1600000_0_0) shapeCasts_S1x1600000_S1600000

/-- The edges' destination rows: row 1 of the edge list. -/
def dstOf (e : Edges) : Ends :=
  shapeCast S1600000 (extractStridedSlice S1x1600000 ![1, 0] e slices_S2x1600000_S1x1600000_1_0) shapeCasts_S1x1600000_S1600000

/-- Mean aggregation of the rows of x over the edges (src → dst). -/
def agg (x : Feat) (src dst : Ends) : Feat :=
  Host.divf (F := Ideal)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

variable (X : Valuation τ sig (Elt Ideal))

/-! ## The first stretch -/

set_option maxHeartbeats 4000000 in
theorem fold0_agg : StableHlo.after (hostOps0 (F := Ideal)) X (Proc.devRef .tc main_v22)
    = agg (X (Proc.devRef .tc main_arg0)) (srcOf (X (Proc.devRef .tc main_arg1))) (dstOf (X (Proc.devRef .tc main_arg1))) := by
  after_results_simp
  rfl

set_option maxHeartbeats 4000000 in
theorem fold0_src : StableHlo.after (hostOps0 (F := Ideal)) X (Proc.devRef .tc main_v1) = srcOf (X (Proc.devRef .tc main_arg1)) := by
  after_results_simp
  rfl

set_option maxHeartbeats 4000000 in
theorem fold0_dst : StableHlo.after (hostOps0 (F := Ideal)) X (Proc.devRef .tc main_v3) = dstOf (X (Proc.devRef .tc main_arg1)) := by
  after_results_simp
  rfl

set_option maxHeartbeats 4000000 in
theorem fold0_keep :
    StableHlo.after (hostOps0 (F := Ideal)) X (Proc.devRef .tc main_arg0) = X (Proc.devRef .tc main_arg0)
    ∧ StableHlo.after (hostOps0 (F := Ideal)) X (Proc.devRef .tc main_arg2) = X (Proc.devRef .tc main_arg2)
    ∧ StableHlo.after (hostOps0 (F := Ideal)) X (Proc.devRef .tc main_arg3) = X (Proc.devRef .tc main_arg3)
    ∧ StableHlo.after (hostOps0 (F := Ideal)) X (Proc.devRef .tc main_arg4) = X (Proc.devRef .tc main_arg4)
    ∧ StableHlo.after (hostOps0 (F := Ideal)) X (Proc.devRef .tc main_arg5) = X (Proc.devRef .tc main_arg5)
    ∧ StableHlo.after (hostOps0 (F := Ideal)) X (Proc.devRef .tc main_arg6) = X (Proc.devRef .tc main_arg6)
    ∧ StableHlo.after (hostOps0 (F := Ideal)) X (Proc.devRef .tc main_arg7) = X (Proc.devRef .tc main_arg7)
    ∧ StableHlo.after (hostOps0 (F := Ideal)) X (Proc.devRef .tc main_arg8) = X (Proc.devRef .tc main_arg8)
    ∧ StableHlo.after (hostOps0 (F := Ideal)) X (Proc.devRef .tc main_arg9) = X (Proc.devRef .tc main_arg9) := by
  refine ⟨?_, ?_, ?_, ?_, ?_, ?_, ?_, ?_, ?_⟩ <;> after_results_simp

/-! ## The second stretch -/

set_option maxHeartbeats 4000000 in
theorem fold1_agg : StableHlo.after (hostOps1 (F := Ideal)) X (Proc.devRef .tc main_v42)
    = agg (X (Proc.devRef .tc main_v23)) (X (Proc.devRef .tc main_v1)) (X (Proc.devRef .tc main_v3)) := by
  after_results_simp
  rfl

set_option maxHeartbeats 4000000 in
theorem fold1_row : StableHlo.after (hostOps1 (F := Ideal)) X (Proc.devRef .tc main_v43)
    = transpose S1x128 [1, 0] (X (Proc.devRef .tc main_arg8)) transposes_S128x1_S1x128_1_0 := by
  after_results_simp

set_option maxHeartbeats 4000000 in
theorem fold1_keep :
    StableHlo.after (hostOps1 (F := Ideal)) X (Proc.devRef .tc main_v23) = X (Proc.devRef .tc main_v23)
    ∧ StableHlo.after (hostOps1 (F := Ideal)) X (Proc.devRef .tc main_arg5) = X (Proc.devRef .tc main_arg5)
    ∧ StableHlo.after (hostOps1 (F := Ideal)) X (Proc.devRef .tc main_arg6) = X (Proc.devRef .tc main_arg6)
    ∧ StableHlo.after (hostOps1 (F := Ideal)) X (Proc.devRef .tc main_arg7) = X (Proc.devRef .tc main_arg7)
    ∧ StableHlo.after (hostOps1 (F := Ideal)) X (Proc.devRef .tc main_arg9) = X (Proc.devRef .tc main_arg9) := by
  refine ⟨?_, ?_, ?_, ?_, ?_⟩ <;> after_results_simp

/-! ## The third stretch -/

theorem fold2_res : StableHlo.after (hostOps2 (F := Ideal)) X (Proc.devRef .tc main_v45)
    = shapeCast S100000 (X (Proc.devRef .tc main_v44)) shapeCasts_S100000x1_S100000 := by
  after_results_simp
  rfl

end Cert.KernelIdeal.HostK

end
-- ==== Proof.Whole.lean ====
/-
  The whole computation as one function of the ten arguments, over the extended reals.

  hidden = layer (agg x, x; Wn0, Wr0, b0): the first layer's output (a 100000 × 128 matrix).
  result = the head of  layer (agg hidden, hidden; Wn1, Wr1, b1)  with weights Wh and bias bh, the 100000 × 1 column
  reshaped to a vector of 100000 numbers. Both programs are shown to end at this function of their arguments.
-/
import proofs.«113463_j67680094650381_1_alg».proof.Proof.HostK
import proofs.«113463_j67680094650381_1_alg».proof.Proof.Spec

noncomputable section

namespace Cert.KernelIdeal.HostK

open Idealize.ShloMosaic Cert.KernelIdeal Cert.KernelIdeal.Gen Cert.Sage

abbrev Wt : Type := (⟨S128x128, .f32⟩ : BufTy).Contents (Elt Ideal)
abbrev Bias : Type := (⟨S128, .f32⟩ : BufTy).Contents (Elt Ideal)
abbrev HeadW : Type := (⟨S128x1, .f32⟩ : BufTy).Contents (Elt Ideal)
abbrev HeadB : Type := (⟨S1, .f32⟩ : BufTy).Contents (Elt Ideal)
abbrev Out : Type := (⟨S100000, .f32⟩ : BufTy).Contents (Elt Ideal)

/-- The first layer's output. -/
def hidden (x : Feat) (e : Edges) (wn wr : Wt) (b : Bias) : Feat :=
  layer (n := 100000) (agg x (srcOf e) (dstOf e)) x wn wr b

/-- The network's output. -/
def result (x : Feat) (e : Edges) (wn0 wr0 : Wt) (b0 : Bias) (wn1 wr1 : Wt) (b1 : Bias) (wh : HeadW) (bh : HeadB) : Out :=
  shapeCast S100000
    (headCol (n := 100000)
      (layer (n := 100000) (agg (hidden x e wn0 wr0 b0) (srcOf e) (dstOf e)) (hidden x e wn0 wr0 b0) wn1 wr1 b1) wh bh)
    shapeCasts_S100000x1_S100000

end Cert.KernelIdeal.HostK

end
-- ==== Proof.KValue.lean ====
/-
  The idealized kernel's result as a function of its arguments.

  The last boundary's contents at the result buffer are walked back through @main: the final reshape reads region 1's
  output column; region 1's output is the row-form head of the layer of what the second stretch of host operations left
  (the aggregation of region 0's output, region 0's output itself, the second layer's weights and bias, the head's
  weight column transposed to a row, the head's bias); region 0's output is the layer of what the first stretch left
  (the aggregation of the input features, the features, the first layer's weights and bias); and every argument buffer
  is read back to the launch memory. The head over the transposed column is the head over the column.
-/
import proofs.«113463_j67680094650381_1_alg».proof.Proof.Gen.KernelIdeal.Frame
import proofs.«113463_j67680094650381_1_alg».proof.Proof.Final0
import proofs.«113463_j67680094650381_1_alg».proof.Proof.Final1
import proofs.«113463_j67680094650381_1_alg».proof.Proof.Whole
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.HostK Cert.Sage

variable (m : (ℓ : Loc nD τ sig) → Buf (Elt Ideal) ℓ) (ρ : Dev nD → PrngReg) (c : Dev nD)

/-! ## The arguments, as launched -/
abbrev a0 : Feat := m ((c : Thread nD τ).loc main_arg0)
abbrev a1 : Edges := m ((c : Thread nD τ).loc main_arg1)
abbrev a2 : Wt := m ((c : Thread nD τ).loc main_arg2)
abbrev a3 : Wt := m ((c : Thread nD τ).loc main_arg3)
abbrev a4 : Bias := m ((c : Thread nD τ).loc main_arg4)
abbrev a5 : Wt := m ((c : Thread nD τ).loc main_arg5)
abbrev a6 : Wt := m ((c : Thread nD τ).loc main_arg6)
abbrev a7 : Bias := m ((c : Thread nD τ).loc main_arg7)
abbrev a8 : HeadW := m ((c : Thread nD τ).loc main_arg8)
abbrev a9 : HeadB := m ((c : Thread nD τ).loc main_arg9)

/-! ## At region 0's entry -/
theorem W1_v22 : W1 m ρ c (Proc.devRef .tc main_v22) = agg (a0 m c) (srcOf (a1 m c)) (dstOf (a1 m c)) := fold0_agg (W0 m ρ c)
theorem W1_arg0 : W1 m ρ c (Proc.devRef .tc main_arg0) = a0 m c := (fold0_keep (W0 m ρ c)).1
theorem W1_arg2 : W1 m ρ c (Proc.devRef .tc main_arg2) = a2 m c := (fold0_keep (W0 m ρ c)).2.1
theorem W1_arg3 : W1 m ρ c (Proc.devRef .tc main_arg3) = a3 m c := (fold0_keep (W0 m ρ c)).2.2.1
theorem W1_arg4 : W1 m ρ c (Proc.devRef .tc main_arg4) = a4 m c := (fold0_keep (W0 m ρ c)).2.2.2.1

/-! ## At region 0's exit -/
theorem W2_v23 : W2 m ρ c (Proc.devRef .tc main_v23) = hidden (a0 m c) (a1 m c) (a2 m c) (a3 m c) (a4 m c) := by
  refine (W2_arr m ρ c 5).trans ((Final0.final (V1 m ρ) c).trans ?_)
  show layer (n := 100000) (W1 m ρ c (Proc.devRef .tc main_v22)) (W1 m ρ c (Proc.devRef .tc main_arg0))
      (W1 m ρ c (Proc.devRef .tc main_arg2)) (W1 m ρ c (Proc.devRef .tc main_arg3)) (W1 m ρ c (Proc.devRef .tc main_arg4)) = _
  rw [W1_v22, W1_arg0, W1_arg2, W1_arg3, W1_arg4]
  rfl
theorem W2_v1 : W2 m ρ c (Proc.devRef .tc main_v1) = srcOf (a1 m c) :=
  (W2_of_ne m ρ c main_v1 (by decide)).trans (fold0_src (W0 m ρ c))
theorem W2_v3 : W2 m ρ c (Proc.devRef .tc main_v3) = dstOf (a1 m c) :=
  (W2_of_ne m ρ c main_v3 (by decide)).trans (fold0_dst (W0 m ρ c))
theorem W2_arg5 : W2 m ρ c (Proc.devRef .tc main_arg5) = a5 m c :=
  (W2_of_ne m ρ c main_arg5 (by decide)).trans (fold0_keep (W0 m ρ c)).2.2.2.2.1
theorem W2_arg6 : W2 m ρ c (Proc.devRef .tc main_arg6) = a6 m c :=
  (W2_of_ne m ρ c main_arg6 (by decide)).trans (fold0_keep (W0 m ρ c)).2.2.2.2.2.1
theorem W2_arg7 : W2 m ρ c (Proc.devRef .tc main_arg7) = a7 m c :=
  (W2_of_ne m ρ c main_arg7 (by decide)).trans (fold0_keep (W0 m ρ c)).2.2.2.2.2.2.1
theorem W2_arg8 : W2 m ρ c (Proc.devRef .tc main_arg8) = a8 m c :=
  (W2_of_ne m ρ c main_arg8 (by decide)).trans (fold0_keep (W0 m ρ c)).2.2.2.2.2.2.2.1
theorem W2_arg9 : W2 m ρ c (Proc.devRef .tc main_arg9) = a9 m c :=
  (W2_of_ne m ρ c main_arg9 (by decide)).trans (fold0_keep (W0 m ρ c)).2.2.2.2.2.2.2.2

/-! ## At region 1's entry -/
theorem W3_v42 : W3 m ρ c (Proc.devRef .tc main_v42)
    = agg (hidden (a0 m c) (a1 m c) (a2 m c) (a3 m c) (a4 m c)) (srcOf (a1 m c)) (dstOf (a1 m c)) := by
  refine (fold1_agg (W2 m ρ c)).trans ?_
  rw [W2_v23, W2_v1, W2_v3]
theorem W3_v23 : W3 m ρ c (Proc.devRef .tc main_v23) = hidden (a0 m c) (a1 m c) (a2 m c) (a3 m c) (a4 m c) :=
  (fold1_keep (W2 m ρ c)).1.trans (W2_v23 m ρ c)
theorem W3_arg5 : W3 m ρ c (Proc.devRef .tc main_arg5) = a5 m c := (fold1_keep (W2 m ρ c)).2.1.trans (W2_arg5 m ρ c)
theorem W3_arg6 : W3 m ρ c (Proc.devRef .tc main_arg6) = a6 m c := (fold1_keep (W2 m ρ c)).2.2.1.trans (W2_arg6 m ρ c)
theorem W3_arg7 : W3 m ρ c (Proc.devRef .tc main_arg7) = a7 m c := (fold1_keep (W2 m ρ c)).2.2.2.1.trans (W2_arg7 m ρ c)
theorem W3_arg9 : W3 m ρ c (Proc.devRef .tc main_arg9) = a9 m c := (fold1_keep (W2 m ρ c)).2.2.2.2.trans (W2_arg9 m ρ c)
theorem W3_v43 : W3 m ρ c (Proc.devRef .tc main_v43) = transpose S1x128 [1, 0] (a8 m c) transposes_S128x1_S1x128_1_0 := by
  refine (fold1_row (W2 m ρ c)).trans ?_
  rw [W2_arg8]

/-- The weight column transposed to a row, at (0, k), is the column at (k, 0). -/
theorem row_of_col (wh : HeadW) (k : Fin 128) :
    transpose S1x128 [1, 0] wh transposes_S128x1_S1x128_1_0 (ix2 (0 : Fin 1) k) = wh (ix2 k (0 : Fin 1)) :=
  transpose_apply [1, 0] wh transposes_S128x1_S1x128_1_0 (ix2 (0 : Fin 1) k) (ix2 k (0 : Fin 1)) fun b => by
    match b with
    | ⟨0, _⟩ => rfl
    | ⟨1, _⟩ => rfl

/-! ## At region 1's exit, and the result -/
theorem W4_v44 : W4 m ρ c (Proc.devRef .tc main_v44)
    = headCol (n := 100000)
        (layer (n := 100000) (agg (hidden (a0 m c) (a1 m c) (a2 m c) (a3 m c) (a4 m c)) (srcOf (a1 m c)) (dstOf (a1 m c)))
          (hidden (a0 m c) (a1 m c) (a2 m c) (a3 m c) (a4 m c)) (a5 m c) (a6 m c) (a7 m c))
        (a8 m c) (a9 m c) := by
  refine (W4_arr m ρ c 7).trans ((Final1.final (V3 m ρ) c).trans ?_)
  show headRowCol (n := 100000)
      (layer (n := 100000) (W3 m ρ c (Proc.devRef .tc main_v42)) (W3 m ρ c (Proc.devRef .tc main_v23))
        (W3 m ρ c (Proc.devRef .tc main_arg5)) (W3 m ρ c (Proc.devRef .tc main_arg6)) (W3 m ρ c (Proc.devRef .tc main_arg7)))
      (W3 m ρ c (Proc.devRef .tc main_v43)) (W3 m ρ c (Proc.devRef .tc main_arg9)) = _
  rw [W3_v42, W3_v23, W3_arg5, W3_arg6, W3_arg7, W3_v43, W3_arg9]
  exact headRowCol_eq_headCol _ _ (a8 m c) (a9 m c) (row_of_col (a8 m c))

/-- The result buffer's final contents are the whole function of the arguments as launched. -/
theorem value : W5 m ρ c (Proc.devRef .tc main_v45)
    = result (a0 m c) (a1 m c) (a2 m c) (a3 m c) (a4 m c) (a5 m c) (a6 m c) (a7 m c) (a8 m c) (a9 m c) := by
  refine (fold2_res (W4 m ρ c)).trans ?_
  rw [W4_v44]
  rfl

end Cert.KernelIdeal.KValue

end
-- ==== Proof.RefValue.lean ====
/-
  The idealized reference's result as the same function of its arguments.

  The reference is a straight line of host operations. Its stages compose as: the aggregation chain of the input
  features; a layer written with the host's operations (two dot products added, the bias stood up as one row and spread
  over the rows, the maximum with the zero scalar spread over the matrix); the same aggregation chain of that layer's
  output; a second such layer; the head (a dot product with the 128 × 1 weight column plus the one-entry bias stood up
  as 1 × 1 and spread over the rows); and the reshape of the 100000 × 1 column to a vector.

  The host's layer is the layer of the specification, index by index: a dot product of plain dimension numbers is the
  sum over k of the products, the spread bias row reads the bias's entry of the column, the spread zero scalar is 0.
  Likewise the host's head is the head of the specification. The aggregation chain is the kernel's, operation for
  operation, and is not opened.
-/
import proofs.«113463_j67680094650381_1_alg».proof.Proof.Gen.ReferenceIdeal.Read
import proofs.«113463_j67680094650381_1_alg».proof.Proof.Whole
import proofs.«113463_j67680094650381_1_alg».proof.Proof.LibPlainDot
import proofs.«113463_j67680094650381_1_alg».proof.Proof.LibRowSpread
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx Cert.ReferenceIdeal Cert.ReferenceIdeal.Gen Cert.ReferenceIdeal.Read Cert.Sage
open Cert.KernelIdeal.HostK (Feat Edges Ends Wt Bias HeadW HeadB Out agg srcOf dstOf hidden result)

/-- A layer as the host's operations compute it. -/
def layerR (a h : Feat) (wn wr : Wt) (b : Bias) : Feat :=
  maximumf (F := Ideal)
    (addf (F := Ideal)
      (addf (F := Ideal) (Host.dotGeneral (F := Ideal) (φ₁ := .f32) (φ₂ := .f32) dot_S100000x128_S128x128_S100000x128_1_0_0_1_n_n none a wn)
        (Host.dotGeneral (F := Ideal) (φ₁ := .f32) (φ₂ := .f32) dot_S100000x128_S128x128_S100000x128_1_0_0_1_n_n none h wr))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The head as the host's operations compute it. -/
def headR (X : Feat) (wh : HeadW) (bh : HeadB) : (⟨S100000x1, .f32⟩ : BufTy).Contents (Elt Ideal) :=
  addf (F := Ideal) (Host.dotGeneral (F := Ideal) (φ₁ := .f32) (φ₂ := .f32) dot_S100000x128_S128x1_S100000x1_1_0_0_1_n_n none X wh)
    (broadcastInDim S100000x1 ![0, 1] bcast_S1x1_S100000x1_0_1 (broadcastInDim S1x1 ![1] bcast_S1_S1x1_1 bh))

theorem dotR_eq : dot_S100000x128_S128x128_S100000x128_1_0_0_1_n_n = DotDims.plain 100000 128 128 := rfl
theorem dotH_eq : dot_S100000x128_S128x1_S100000x1_1_0_0_1_n_n = DotDims.plain 100000 128 1 := rfl

/-- The host's layer is the specification's layer. -/
theorem layerR_eq (a h : Feat) (wn wr : Wt) (b : Bias) : layerR a h wn wr b = layer (n := 100000) a h wn wr b := by
  funext i
  obtain ⟨p, q, rfl⟩ : ∃ (p : Fin 100000) (q : Fin 128), i = ix2 p q := ⟨i 0, i 1, eq_ix2 i⟩
  rw [layer_apply]
  unfold layerR layerAt
  rw [maximumf_apply, addf_apply, addf_apply, RowSpread.scalarInDim_apply, RowSpread.rowInDim2_apply, dotR_eq]
  refine congrArg₂ max (congrArg₂ (· + ·) (congrArg₂ (· + ·) ?_ ?_) ?_) Ideal.ofBits_zero_f32
  · exact PlainDot.dotGeneral_apply (φ₁ := .f32) (φ₂ := .f32) none _ a wn p q
  · exact PlainDot.dotGeneral_apply (φ₁ := .f32) (φ₂ := .f32) none _ h wr p q
  · exact broadcastInDim_apply ![1] bcast_S128_S1x128_1 b (ix2 (0 : Fin 1) q) (ix1 q) (fun a => match a with
      | ⟨0, _⟩ => by show q.val = if (128 : Nat) = 1 then 0 else q.val; rw [if_neg (by decide)])

/-- The host's head is the specification's head. -/
theorem headR_eq (X : Feat) (wh : HeadW) (bh : HeadB) : headR X wh bh = headCol (n := 100000) X wh bh := by
  funext i
  obtain ⟨p, u, rfl⟩ : ∃ (p : Fin 100000) (u : Fin 1), i = ix2 p u := ⟨i 0, i 1, eq_ix2 i⟩
  obtain rfl : u = 0 := Subsingleton.elim _ _
  rw [headCol_apply]
  unfold headR headAt
  rw [addf_apply, RowSpread.rowInDim2_apply, dotH_eq]
  refine congrArg₂ (· + ·) ?_ ?_
  · exact PlainDot.dotGeneral_apply (φ₁ := .f32) (φ₂ := .f32) none _ X wh p (0 : Fin 1)
  · exact broadcastInDim_apply ![1] bcast_S1_S1x1_1 bh (ix2 (0 : Fin 1) (0 : Fin 1)) (ix1 (0 : Fin 1)) (fun a => match a with
      | ⟨0, _⟩ => by show (0 : Nat) = if (1 : Nat) = 1 then 0 else 0; rw [if_pos rfl])

/-! ## The stages -/

set_option maxRecDepth 65536 in
theorem v22_eq (x0 : Feat) (x1 : Edges) : val_main_v22 (F := Ideal) x0 x1 = agg x0 (srcOf x1) (dstOf x1) := rfl

set_option maxRecDepth 65536 in
theorem v29_eq (x0 : Feat) (x1 : Edges) (x2 x3 : Wt) (x4 : Bias) :
    val_main_v29 (F := Ideal) x0 x1 x2 x3 x4 = layerR (val_main_v22 (F := Ideal) x0 x1) x0 x2 x3 x4 := rfl

set_option maxRecDepth 65536 in
theorem v48_eq (x0 : Feat) (x1 : Edges) (x2 x3 : Wt) (x4 : Bias) :
    val_main_v48 (F := Ideal) x0 x1 x2 x3 x4 = agg (val_main_v29 (F := Ideal) x0 x1 x2 x3 x4) (srcOf x1) (dstOf x1) := rfl

set_option maxRecDepth 65536 in
theorem v55_eq (x0 : Feat) (x1 : Edges) (x2 x3 : Wt) (x4 : Bias) (x5 x6 : Wt) (x7 : Bias) :
    val_main_v55 (F := Ideal) x0 x1 x2 x3 x4 x5 x6 x7
      = layerR (val_main_v48 (F := Ideal) x0 x1 x2 x3 x4) (val_main_v29 (F := Ideal) x0 x1 x2 x3 x4) x5 x6 x7 := rfl

set_option maxRecDepth 65536 in
theorem v59_eq (x0 : Feat) (x1 : Edges) (x2 x3 : Wt) (x4 : Bias) (x5 x6 : Wt) (x7 : Bias) (x8 : HeadW) (x9 : HeadB) :
    val_main_v59 (F := Ideal) x0 x1 x2 x3 x4 x5 x6 x7 x8 x9 = headR (val_main_v55 (F := Ideal) x0 x1 x2 x3 x4 x5 x6 x7) x8 x9 := rfl

/-- The reference's result stage is the whole function of its arguments. -/
theorem value (x0 : Feat) (x1 : Edges) (x2 x3 : Wt) (x4 : Bias) (x5 x6 : Wt) (x7 : Bias) (x8 : HeadW) (x9 : HeadB) :
    val_main_v60 (F := Ideal) x0 x1 x2 x3 x4 x5 x6 x7 x8 x9 = result x0 x1 x2 x3 x4 x5 x6 x7 x8 x9 := by
  unfold val_main_v60 Cert.KernelIdeal.HostK.result Cert.KernelIdeal.HostK.hidden
  rw [v59_eq, headR_eq, v55_eq, layerR_eq, v48_eq, v29_eq, layerR_eq, v22_eq]

end Cert.ReferenceIdeal.RefValue

end
-- ==== Proof.lean ====
/-
  A two-layer mean-aggregation graph network with a linear head, computed by two blocked kernels among host
  operations, against the same network written with host operations only.

  Both programs compute, from node features x (100000 × 128), an edge list, two layers' weights and biases and a head:
      hidden = max ((agg x · Wn0 + x · Wr0) + b0, 0)
      out    = (max ((agg hidden · Wn1 + hidden · Wr1) + b1, 0)) · Wh + bh,   read as a vector of 100000 numbers,
  where agg is the mean of the source rows over each destination's incoming edges (a gather, two scatter-adds and a
  quotient: the same host operations in both programs, carried as one function and never opened).

  The kernel computes each layer in 20 blocks of 5000 rows: a layer's row depends only on the same row of its two matrix
  operands, so the blocks are rows of one whole-array layer and cover the array (Final0, Final1). Its head multiplies by
  the weight column laid out as a row and sums the lanes, which is the dot product with the column (KValue). The
  reference's dot products, spread biases and maxima are the same sums, index by index (RefValue). Only commutativity and
  associativity of + on the extended reals are used — no entry needs to be finite —, so the precondition is not opened.
  The frames of the two kernel programs are the generated ones, the reference's frame is its run with the result
  dropped, and the idealization changed no operation.
-/
import proofs.«113463_j67680094650381_1_alg».proof.Defs
import proofs.«113463_j67680094650381_1_alg».proof.Proof.Gen.Kernel
import proofs.«113463_j67680094650381_1_alg».proof.Proof.Gen.Kernel.Skeleton
import proofs.«113463_j67680094650381_1_alg».proof.Proof.Gen.Kernel.Launch
import proofs.«113463_j67680094650381_1_alg».proof.Proof.Gen.Kernel.Points
import proofs.«113463_j67680094650381_1_alg».proof.Proof.Gen.Kernel.Frame
import proofs.«113463_j67680094650381_1_alg».proof.Proof.Gen.KernelIdeal
import proofs.«113463_j67680094650381_1_alg».proof.Proof.Gen.KernelIdeal.Skeleton
import proofs.«113463_j67680094650381_1_alg».proof.Proof.Gen.KernelIdeal.Launch
import proofs.«113463_j67680094650381_1_alg».proof.Proof.Gen.KernelIdeal.Points
import proofs.«113463_j67680094650381_1_alg».proof.Proof.Gen.KernelIdeal.Frame
import proofs.«113463_j67680094650381_1_alg».proof.Proof.Gen.ReferenceIdeal
import proofs.«113463_j67680094650381_1_alg».proof.Proof.Gen.ReferenceIdeal.Run
import proofs.«113463_j67680094650381_1_alg».proof.Proof.Gen.ReferenceIdeal.Read
import proofs.«113463_j67680094650381_1_alg».proof.Proof.Gen.Pre_finite_inputs
import proofs.«113463_j67680094650381_1_alg».proof.Proof.KRun
import proofs.«113463_j67680094650381_1_alg».proof.Proof.KValue
import proofs.«113463_j67680094650381_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the same function of arguments that agree. -/
theorem algebraic : Cert.algebraic_KernelIdeal_ReferenceIdeal := by
  intro m ρ m' ρ' _ hagree
  refine ⟨fun c => Cert.KernelIdeal.HostK.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.value m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v60_eq, Cert.ReferenceIdeal.RefValue.value, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
